-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S128x64 .f32) (main_arg5 : FVec F S64x64 .f32) (main_arg6 : FVec F S64 .f32) (main_arg7 : FVec F S64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩

abbrev nBuf : Space → Nat
  | .hbm => 56
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Run.lean ====
/-
  The idealized kernel program's run with its RESULT named: every weakly fair execution of @main terminates, nothing
  faulting, with the result array `main_v38` holding what the second kernel region's write-backs leave in it (the last
  boundary's contents, read at that buffer) and the eight arguments as launched. The program is four segments — host
  operations, the first layer's kernel over ten row blocks, host operations, the second layer's kernel over ten row
  blocks — and the contents at each boundary are a fold of the segments from the launch memory.
-/
import proofs.«133836_j18262200942989_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_out : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Spec.lean ====
/-
  The mathematics both programs compute, stated once over plain extended-real arrays.

  A GraphSAGE layer with mean aggregation sends a node's feature row `x_r` and the mean `a_r` of its in-neighbours' rows to
  `a_r · W_l + x_r · W_r + b`: at output feature `c` that is a sum over the `K` input features of `a (r, k) · W_l (k, c)`,
  the like sum for `x` and `W_r`, and the bias `b c`. The two programs add the three terms in different orders; on the
  extended reals addition is commutative and associative at the infinities too, so the order does not matter
  (`lin_bias_middle`), and no finiteness of the inputs is needed anywhere.
-/
import Idealize.ShloMosaic.PureOps.Ideal
import Idealize.ShloMosaic.Lib.ValueIdx

noncomputable section

namespace Cert.Sage

open Idealize.ShloMosaic Idealize.ShloMosaic.ValueIdx
open scoped BigOperators

/-- One layer before its activation, at node `r` and output feature `c`, over `K` input features: the aggregated row
    against the left weights, plus the node's own row against the right weights, plus the bias. -/
def lin (K : Nat) (a x : (⟨2, ![100000, K]⟩ : Shape).Idx → EReal) (Wl Wr : (⟨2, ![K, 64]⟩ : Shape).Idx → EReal)
    (b : Fin 64 → EReal) (r : Fin 100000) (c : Fin 64) : EReal :=
  ((∑ k : Fin K, a (ix2 r k) * Wl (ix2 k c)) + (∑ k : Fin K, x (ix2 r k) * Wr (ix2 k c))) + b c

/-- The same three terms with the bias added between the two sums: the order the reference adds them in. -/
theorem lin_bias_middle (K : Nat) (a x : (⟨2, ![100000, K]⟩ : Shape).Idx → EReal) (Wl Wr : (⟨2, ![K, 64]⟩ : Shape).Idx → EReal)
    (b : Fin 64 → EReal) (r : Fin 100000) (c : Fin 64) :
    ((∑ k : Fin K, a (ix2 r k) * Wl (ix2 k c)) + b c) + (∑ k : Fin K, x (ix2 r k) * Wr (ix2 k c)) = lin K a x Wl Wr b r c :=
  add_right_comm _ _ _

/-- A whole layer's output array without activation. -/
def layer (K : Nat) (a x : (⟨2, ![100000, K]⟩ : Shape).Idx → EReal) (Wl Wr : (⟨2, ![K, 64]⟩ : Shape).Idx → EReal)
    (b : Fin 64 → EReal) : (⟨2, ![100000, 64]⟩ : Shape).Idx → EReal :=
  fun i => lin K a x Wl Wr b (i 0) (i 1)

/-- A whole layer's output array with the rectifier: each entry's maximum with zero. -/
def reluLayer (K : Nat) (a x : (⟨2, ![100000, K]⟩ : Shape).Idx → EReal) (Wl Wr : (⟨2, ![K, 64]⟩ : Shape).Idx → EReal)
    (b : Fin 64 → EReal) : (⟨2, ![100000, 64]⟩ : Shape).Idx → EReal :=
  fun i => max (lin K a x Wl Wr b (i 0) (i 1)) 0

end Cert.Sage

end
-- ==== Proof.Payload.lean ====
/-
  The arithmetic of the two kernel bodies, read at one output element.

  Each body multiplies a block of aggregated rows by the left weights and the block of the nodes' own rows by the right
  weights, adds the two products, adds the bias row to every row, and (first layer only) takes the maximum with zero.
  Over the extended reals every float operation is exact and narrowing a float to a shorter format is the identity, so
  at row `p` and output feature `q` a body's value is the two sums over the input features of the products, plus the
  bias at `q`, and for the first layer the maximum of that with zero.

  The one step that is not by unfolding is the matrix product: the library states it as a sum over the indices of the
  contraction shape, a shape with one axis; the sum is carried over to a sum over the numbers below the axis's extent by
  the bijection between the two, and the operands' indices at a contraction position are computed coordinate by
  coordinate.
-/
import proofs.«133836_j18262200942989_1_alg».proof.Proof.Gen.KernelIdeal.Skeleton
import proofs.«133836_j18262200942989_1_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The first layer's contraction: [10000,128] by [128,64], contracting the 128. -/
abbrev D0 : DotDims S10000x128 S128x64 S10000x64 := dot_S10000x128_S128x64_S10000x64_1_0_0_1_n_n
/-- The second layer's contraction: [10000,64] by [64,64], contracting the first 64 of the right operand. -/
abbrev D1 : DotDims S10000x64 S64x64 S10000x64 := dot_S10000x64_S64x64_S10000x64_1_0_0_1_n_n

/-! ## The operands' indices of the first layer's product, coordinate by coordinate -/

theorem lhs0_0 (i : S10000x64.Idx) (c : D0.contr.Idx) : (D0.lhsIdx i c 0).val = (i 0).val := by
  unfold DotDims.lhsIdx
  rw [dif_neg (show ¬(0 : Fin S10000x128.rank) ∈ D0.lhsBatch by decide), dif_pos (show (0 : Fin S10000x128.rank) ∈ D0.lhsNonContracting by decide)]
  rfl
theorem lhs0_1 (i : S10000x64.Idx) (c : D0.contr.Idx) : (D0.lhsIdx i c 1).val = (c ⟨0, by decide⟩).val :=
  D0.lhsIdx_val_of_single rfl i c
theorem rhs0_0 (i : S10000x64.Idx) (c : D0.contr.Idx) : (D0.rhsIdx i c 0).val = (c ⟨0, by decide⟩).val :=
  D0.rhsIdx_val_of_single rfl i c
theorem rhs0_1 (i : S10000x64.Idx) (c : D0.contr.Idx) : (D0.rhsIdx i c 1).val = (i 1).val := by
  unfold DotDims.rhsIdx
  rw [dif_neg (show ¬(1 : Fin S128x64.rank) ∈ D0.rhsBatch by decide), dif_pos (show (1 : Fin S128x64.rank) ∈ D0.rhsNonContracting by decide)]
  rfl

/-- The first layer's matrix product with a zero accumulator, at row `p` and column `q`: the sum over the 128 input
    features of the left operand at `(p, k)` times the right operand at `(k, q)`. -/
theorem matmul0_apply {φ₁ φ₂ : FTy} (lhs : FVec Ideal S10000x128 φ₁) (rhs : FVec Ideal S128x64 φ₂) (p : Fin 10000) (q : Fin 64) :
    matmul (F := Ideal) D0 none lhs rhs (constant (F := Ideal) S10000x64 .f32 0x00000000#32) (ix2 p q)
      = ∑ k : Fin 128, lhs (ix2 p k) * rhs (ix2 k q) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 128 rfl rfl).symm k) = ix2 k q := funext fun a => Fin.ext (by
    match a with
    | ⟨0, _⟩ => exact (rhs0_0 _ _).trans hk
    | ⟨1, _⟩ => exact rhs0_1 _ _)
  rw [el, er]

/-! ## The same for the second layer's product -/

theorem lhs1_0 (i : S10000x64.Idx) (c : D1.contr.Idx) : (D1.lhsIdx i c 0).val = (i 0).val := by
  unfold DotDims.lhsIdx
  rw [dif_neg (show ¬(0 : Fin S10000x64.rank) ∈ D1.lhsBatch by decide), dif_pos (show (0 : Fin S10000x64.rank) ∈ D1.lhsNonContracting by decide)]
  rfl
theorem lhs1_1 (i : S10000x64.Idx) (c : D1.contr.Idx) : (D1.lhsIdx i c 1).val = (c ⟨0, by decide⟩).val :=
  D1.lhsIdx_val_of_single rfl i c
theorem rhs1_0 (i : S10000x64.Idx) (c : D1.contr.Idx) : (D1.rhsIdx i c 0).val = (c ⟨0, by decide⟩).val :=
  D1.rhsIdx_val_of_single rfl i c
theorem rhs1_1 (i : S10000x64.Idx) (c : D1.contr.Idx) : (D1.rhsIdx i c 1).val = (i 1).val := by
  unfold DotDims.rhsIdx
  rw [dif_neg (show ¬(1 : Fin S64x64.rank) ∈ D1.rhsBatch by decide), dif_pos (show (1 : Fin S64x64.rank) ∈ D1.rhsNonContracting by decide)]
  rfl

/-- The second layer's matrix product with a zero accumulator, at row `p` and column `q`: the sum over the 64 input
    features of the left operand at `(p, k)` times the right operand at `(k, q)`. -/
theorem matmul1_apply {φ₁ φ₂ : FTy} (lhs : FVec Ideal S10000x64 φ₁) (rhs : FVec Ideal S64x64 φ₂) (p : Fin 10000) (q : Fin 64) :
    matmul (F := Ideal) D1 none lhs rhs (constant (F := Ideal) S10000x64 .f32 0x00000000#32) (ix2 p q)
      = ∑ k : Fin 64, lhs (ix2 p k) * rhs (ix2 k q) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 p q) ((contrEquiv1 D1 64 rfl rfl).symm k) = ix2 p k := funext fun a => Fin.ext (by
    match a with
    | ⟨0, _⟩ => exact lhs1_0 _ _
    | ⟨1, _⟩ => exact (lhs1_1 _ _).trans hk)
  have er : D1.rhsIdx (ix2 p q) ((contrEquiv1 D1 64 rfl rfl).symm k) = ix2 k q := funext fun a => Fin.ext (by
    match a with
    | ⟨0, _⟩ => exact (rhs1_0 _ _).trans hk
    | ⟨1, _⟩ => exact rhs1_1 _ _)
  rw [el, er]

/-! ## The bias row broadcast to every row -/

/-- A [1,64] row broadcast to [10000,64], read at `(p, q)`, is the row at `(0, q)`. -/
theorem bias_apply {α : Type} (b : S1x64.Idx → α) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-! ## The two bodies at an element -/

/-- The first layer's body at row `p`, output feature `q`: the aggregated block against the left weights, plus the
    feature block against the right weights, plus the bias, and the maximum of that with zero. -/
theorem pay0_apply (x0 x1 : Vec Ideal S10000x128 .f32) (x2 x4 : Vec Ideal S128x64 .f32) (x3 : Vec Ideal S1x64 .f32) (p : Fin 10000) (q : Fin 64) :
    k0_pay1 (F := Ideal) x0 x1 x2 x4 x3 (ix2 p q)
      = max (((∑ k : Fin 128, x0 (ix2 p k) * x2 (ix2 k q)) + (∑ k : Fin 128, x1 (ix2 p k) * x4 (ix2 k q))) + x3 (ix2 (0 : Fin 1) q)) 0 := by
  unfold k0_pay1
  rw [maximumf_apply, addf_apply, addf_apply, broadcast_apply, bias_apply, shapeCast_self, shapeCast_self,
    matmul0_apply, matmul0_apply]
  show max _ (Ideal.ofBits .f32 0x00000000#32) = _
  rw [Ideal.ofBits_zero_f32]
  rfl

/-- The second layer's body at row `p`, output feature `q`: the same three terms, with no maximum. -/
theorem pay1_apply (x0 x1 : Vec Ideal S10000x64 .f32) (x2 x4 : Vec Ideal S64x64 .f32) (x3 : Vec Ideal S1x64 .f32) (p : Fin 10000) (q : Fin 64) :
    k1_pay1 (F := Ideal) x0 x1 x2 x4 x3 (ix2 p q)
      = ((∑ k : Fin 64, x0 (ix2 p k) * x2 (ix2 k q)) + (∑ k : Fin 64, x1 (ix2 p k) * x4 (ix2 k q))) + x3 (ix2 (0 : Fin 1) q) := by
  unfold k1_pay1
  rw [addf_apply, addf_apply, bias_apply, shapeCast_self, shapeCast_self, shapeCast_self,
    matmul1_apply, matmul1_apply]
  rfl

end Cert.KernelIdeal.Pay

end
-- ==== Proof.Layer0.lean ====
/-
  The first layer's kernel region, from blocks to the whole array.

  The region runs its body at ten grid points. At point `t` the pipeline stages rows `10000 t … 10000 t + 9999` of the
  aggregated-neighbour array and of the feature array, the whole of both weight matrices and of the bias row, and writes
  back rows `10000 t … 10000 t + 9999` of the result. The body's arithmetic at row `p` and column `q` of the block is the
  rectified layer at row `10000 t + p`, column `q` of the whole arrays; the ten row blocks tile the result's rows; so the
  result array ends as the rectified layer of the arrays the region found, whatever those are.
-/
import proofs.«133836_j18262200942989_1_alg».proof.Proof.Gen.KernelIdeal.Frame
import proofs.«133836_j18262200942989_1_alg».proof.Proof.Spec
import proofs.«133836_j18262200942989_1_alg».proof.Proof.Payload
import Idealize.ShloMosaic.Lib.Pipeline.Value
import Idealize.ShloMosaic.Lib.ValueIdx
import Idealize.ShloMosaic.Lib.Tactic

noncomputable section

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- A whole-block access starts at offset zero on both axes. -/
theorem hz : (![0, 0] : Fin 2 → Nat) = fun _ => 0 := funext fun a => by fin_cases a <;> rfl

/-- The printed index maps over the ten grid points: the two row-blocked inputs and the output move to row block `t`,
    the weights and the bias stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated-neighbour window's block at point `t` is rows `10000 t …` of its array. -/
theorem blk_agg (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_v22 : S100000x128.Idx → EReal) i := by
  obtain ⟨e0, e1, -⟩ := idx_facts t
  unfold iblk0
  rw [View.read_apply]
  show V c main_v22 _ = V c main_v22 i
  refine congrArg (V c main_v22) ?_
  funext a; apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The feature window's block at point `t` is rows `10000 t …` of its array. -/
theorem blk_x (c : Dev nD) (t : Fin cfg0.N) (y : S10000x128.Idx) (i : S100000x128.Idx)
    (h0 : (i 0).val = t.val * 10000 + (y 0).val) (h1 : (i 1).val = (y 1).val) :
    (iblk0 V c 1 t : Vec Ideal S10000x128 .f32) y = (V c main_arg0 : S100000x128.Idx → EReal) i := by
  obtain ⟨-, -, e0, e1, -⟩ := idx_facts t
  unfold iblk0
  rw [View.read_apply]
  show V c main_arg0 _ = V c main_arg0 i
  refine congrArg (V c main_arg0) ?_
  funext a; apply Fin.ext
  match a with
  | ⟨0, _⟩ => show win0_1.index t (0 : Fin 2) * 10000 + 1 * (y 0).val = (i 0).val; rw [e0, h0]; omega
  | ⟨1, _⟩ => show win0_1.index t (1 : Fin 2) * 128 + 1 * (y 1).val = (i 1).val; rw [e1, h1]; omega

/-- The left weights' window holds the whole matrix at every point. -/
theorem blk_wl (c : Dev nD) (t : Fin cfg0.N) (y i : S128x64.Idx) (h0 : (i 0).val = (y 0).val) (h1 : (i 1).val = (y 1).val) :
    (iblk0 V c 2 t : Vec Ideal S128x64 .f32) y = (V c main_arg2 : S128x64.Idx → EReal) i := by
  obtain ⟨-, -, -, -, e0, e1, -⟩ := idx_facts t
  unfold iblk0
  rw [View.read_apply]
  show V c main_arg2 _ = V c main_arg2 i
  refine congrArg (V c main_arg2) ?_
  funext a; apply Fin.ext
  match a with
  | ⟨0, _⟩ => show win0_2.index t (0 : Fin 2) * 128 + 1 * (y 0).val = (i 0).val; rw [e0, h0]; omega
  | ⟨1, _⟩ => show win0_2.index t (1 : Fin 2) * 64 + 1 * (y 1).val = (i 1).val; rw [e1, h1]; omega

/-- The bias row's window holds the whole row at every point. -/
theorem blk_b (c : Dev nD) (t : Fin cfg0.N) (y i : S1x64.Idx) (h0 : (i 0).val = (y 0).val) (h1 : (i 1).val = (y 1).val) :
    (iblk0 V c 3 t : Vec Ideal S1x64 .f32) y = (V c main_v23 : S1x64.Idx → EReal) i := by
  obtain ⟨-, -, -, -, -, -, e0, e1, -⟩ := idx_facts t
  unfold iblk0
  rw [View.read_apply]
  show V c main_v23 _ = V c main_v23 i
  refine congrArg (V c main_v23) ?_
  funext a; apply Fin.ext
  match a with
  | ⟨0, _⟩ => show win0_3.index t (0 : Fin 2) * 1 + 1 * (y 0).val = (i 0).val; rw [e0, h0]; omega
  | ⟨1, _⟩ => show win0_3.index t (1 : Fin 2) * 64 + 1 * (y 1).val = (i 1).val; rw [e1, h1]; omega

/-- The right weights' window holds the whole matrix at every point. -/
theorem blk_wr (c : Dev nD) (t : Fin cfg0.N) (y i : S128x64.Idx) (h0 : (i 0).val = (y 0).val) (h1 : (i 1).val = (y 1).val) :
    (iblk0 V c 4 t : Vec Ideal S128x64 .f32) y = (V c main_arg4 : S128x64.Idx → EReal) i := by
  obtain ⟨-, -, -, -, -, -, -, -, e0, e1, -⟩ := idx_facts t
  unfold iblk0
  rw [View.read_apply]
  show V c main_arg4 _ = V c main_arg4 i
  refine congrArg (V c main_arg4) ?_
  funext a; apply Fin.ext
  match a with
  | ⟨0, _⟩ => show win0_4.index t (0 : Fin 2) * 128 + 1 * (y 0).val = (i 0).val; rw [e0, h0]; omega
  | ⟨1, _⟩ => show win0_4.index t (1 : Fin 2) * 64 + 1 * (y 1).val = (i 1).val; rw [e1, h1]; omega

/-- The array the region leaves: the rectified layer of the arrays it found. -/
def result (c : Dev nD) : S100000x64.Idx → EReal :=
  Cert.Sage.reluLayer 128 (V c main_v22) (V c main_arg0) (V c main_arg2) (V c main_arg4) (fun q => (V c main_v23 : S1x64.Idx → EReal) (ix2 (0 : Fin 1) q))

/-- What point `t` writes back is row block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x64) hz, View.ld_unit_zero (S := S1x64) hz]
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (iblk0 V c 4 t) (iblk0 V c 3 t) (ix2 p q)
    = result V c (((cfg0.win 5).blk t).view.emb (ix2 p q))
  refine (Cert.KernelIdeal.Pay.pay0_apply (iblk0 V c 0 t) (iblk0 V c 1 t) (iblk0 V c 2 t) (iblk0 V c 4 t) (iblk0 V c 3 t) p q).trans ?_
  obtain ⟨-, -, -, -, -, -, -, -, -, -, e0, e1⟩ := idx_facts t
  have hr : ((((cfg0.win 5).blk t).view.emb (ix2 p q)) 0).val = t.val * 10000 + p.val := by
    show win0_5.index t (0 : Fin 2) * 10000 + 1 * p.val = _; rw [e0]; omega
  have hc : ((((cfg0.win 5).blk t).view.emb (ix2 p q)) 1).val = q.val := by
    show win0_5.index t (1 : Fin 2) * 64 + 1 * q.val = _; rw [e1]; omega
  unfold result Cert.Sage.reluLayer Cert.Sage.lin
  refine congrArg (fun z => max z 0) ?_
  refine congrArg₂ (· + ·) (congrArg₂ (· + ·) (Finset.sum_congr rfl fun k _ => ?_) (Finset.sum_congr rfl fun k _ => ?_)) ?_
  · exact congrArg₂ (· * ·) (blk_agg V c t (ix2 p k) (ix2 _ k) hr rfl) (blk_wl V c t (ix2 k q) (ix2 k _) rfl hc)
  · exact congrArg₂ (· * ·) (blk_x V c t (ix2 p k) (ix2 _ k) hr rfl) (blk_wr V c t (ix2 k q) (ix2 k _) rfl hc)
  · exact blk_b V c t (ix2 (0 : Fin 1) q) (ix2 (0 : Fin 1) _) rfl hc

/-- An index of the result lies in point `t`'s row block exactly when each coordinate lies in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v24).slice (win0_5.rect t)).set ↔ _
  rw [View.set_slice_whole, Rect.mem_set_unit]
  exact Iff.rfl

/-- Every row of the result lies in the row block of the point `row / 10000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  refine ⟨t, flush0_5 t, ?_⟩
  obtain ⟨-, -, -, -, -, -, -, -, -, -, e0, e1⟩ := idx_facts t
  rw [mem_blk]
  intro a
  match a with
  | ⟨0, _⟩ => show win0_5.index t (0 : Fin 2) * 10000 ≤ (i 0).val ∧ (i 0).val < win0_5.index t (0 : Fin 2) * 10000 + 10000
              rw [e0]; show (i 0).val / 10000 * 10000 ≤ (i 0).val ∧ (i 0).val < (i 0).val / 10000 * 10000 + 10000; omega
  | ⟨1, _⟩ => show win0_5.index t (1 : Fin 2) * 64 ≤ (i 1).val ∧ (i 1).val < win0_5.index t (1 : Fin 2) * 64 + 64
              rw [e1]; omega

/-- After the region its result array is the rectified layer of the arrays it found. -/
theorem final (c : Dev nD) : (dat0 V c).arrAt 5 cfg0.N = result V c :=
  (dat0 V c).arrAt_eq_of_cover 5 (result V c) (fun t _ => flushed_eq V c t) cover

end Cert.KernelIdeal.Layer0

end
-- ==== Proof.Layer1.lean ====
/-
  The second layer's kernel region, from blocks to the whole array.

  The region runs its body at ten grid points. At point `t` the pipeline stages rows `10000 t … 10000 t + 9999` of the
  aggregated-neighbour array and of the hidden array, the whole of both weight matrices and of the bias row, and writes
  back rows `10000 t … 10000 t + 9999` of the result. The body's arithmetic at row `p` and column `q` of the block is the
  layer (no rectifier) at row `10000 t + p`, column `q` of the whole arrays; the ten row blocks tile the result's rows; so the
  result array ends as that layer of the arrays the region found, whatever those are.
-/
import proofs.«133836_j18262200942989_1_alg».proof.Proof.Gen.KernelIdeal.Frame
import proofs.«133836_j18262200942989_1_alg».proof.Proof.Spec
import proofs.«133836_j18262200942989_1_alg».proof.Proof.Payload
import Idealize.ShloMosaic.Lib.Pipeline.Value
import Idealize.ShloMosaic.Lib.ValueIdx
import Idealize.ShloMosaic.Lib.Tactic

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- A whole-block access starts at offset zero on both axes. -/
theorem hz : (![0, 0] : Fin 2 → Nat) = fun _ => 0 := funext fun a => by fin_cases a <;> rfl

/-- The printed index maps over the ten grid points: the two row-blocked inputs and the output move to row block `t`,
    the weights and the bias stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated-neighbour window's block at point `t` is rows `10000 t …` of its array. -/
theorem blk_agg (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v36 : S100000x64.Idx → EReal) i := by
  obtain ⟨e0, e1, -⟩ := idx_facts t
  unfold iblk1
  rw [View.read_apply]
  show V c main_v36 _ = V c main_v36 i
  refine congrArg (V c main_v36) ?_
  funext a; apply Fin.ext
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The hidden-rows window's block at point `t` is rows `10000 t …` of its array. -/
theorem blk_x (c : Dev nD) (t : Fin cfg1.N) (y : S10000x64.Idx) (i : S100000x64.Idx)
    (h0 : (i 0).val = t.val * 10000 + (y 0).val) (h1 : (i 1).val = (y 1).val) :
    (iblk1 V c 1 t : Vec Ideal S10000x64 .f32) y = (V c main_v24 : S100000x64.Idx → EReal) i := by
  obtain ⟨-, -, e0, e1, -⟩ := idx_facts t
  unfold iblk1
  rw [View.read_apply]
  show V c main_v24 _ = V c main_v24 i
  refine congrArg (V c main_v24) ?_
  funext a; apply Fin.ext
  match a with
  | ⟨0, _⟩ => show win1_1.index t (0 : Fin 2) * 10000 + 1 * (y 0).val = (i 0).val; rw [e0, h0]; omega
  | ⟨1, _⟩ => show win1_1.index t (1 : Fin 2) * 64 + 1 * (y 1).val = (i 1).val; rw [e1, h1]; omega

/-- The left weights' window holds the whole matrix at every point. -/
theorem blk_wl (c : Dev nD) (t : Fin cfg1.N) (y i : S64x64.Idx) (h0 : (i 0).val = (y 0).val) (h1 : (i 1).val = (y 1).val) :
    (iblk1 V c 2 t : Vec Ideal S64x64 .f32) y = (V c main_arg5 : S64x64.Idx → EReal) i := by
  obtain ⟨-, -, -, -, e0, e1, -⟩ := idx_facts t
  unfold iblk1
  rw [View.read_apply]
  show V c main_arg5 _ = V c main_arg5 i
  refine congrArg (V c main_arg5) ?_
  funext a; apply Fin.ext
  match a with
  | ⟨0, _⟩ => show win1_2.index t (0 : Fin 2) * 64 + 1 * (y 0).val = (i 0).val; rw [e0, h0]; omega
  | ⟨1, _⟩ => show win1_2.index t (1 : Fin 2) * 64 + 1 * (y 1).val = (i 1).val; rw [e1, h1]; omega

/-- The bias row's window holds the whole row at every point. -/
theorem blk_b (c : Dev nD) (t : Fin cfg1.N) (y i : S1x64.Idx) (h0 : (i 0).val = (y 0).val) (h1 : (i 1).val = (y 1).val) :
    (iblk1 V c 3 t : Vec Ideal S1x64 .f32) y = (V c main_v37 : S1x64.Idx → EReal) i := by
  obtain ⟨-, -, -, -, -, -, e0, e1, -⟩ := idx_facts t
  unfold iblk1
  rw [View.read_apply]
  show V c main_v37 _ = V c main_v37 i
  refine congrArg (V c main_v37) ?_
  funext a; apply Fin.ext
  match a with
  | ⟨0, _⟩ => show win1_3.index t (0 : Fin 2) * 1 + 1 * (y 0).val = (i 0).val; rw [e0, h0]; omega
  | ⟨1, _⟩ => show win1_3.index t (1 : Fin 2) * 64 + 1 * (y 1).val = (i 1).val; rw [e1, h1]; omega

/-- The right weights' window holds the whole matrix at every point. -/
theorem blk_wr (c : Dev nD) (t : Fin cfg1.N) (y i : S64x64.Idx) (h0 : (i 0).val = (y 0).val) (h1 : (i 1).val = (y 1).val) :
    (iblk1 V c 4 t : Vec Ideal S64x64 .f32) y = (V c main_arg7 : S64x64.Idx → EReal) i := by
  obtain ⟨-, -, -, -, -, -, -, -, e0, e1, -⟩ := idx_facts t
  unfold iblk1
  rw [View.read_apply]
  show V c main_arg7 _ = V c main_arg7 i
  refine congrArg (V c main_arg7) ?_
  funext a; apply Fin.ext
  match a with
  | ⟨0, _⟩ => show win1_4.index t (0 : Fin 2) * 64 + 1 * (y 0).val = (i 0).val; rw [e0, h0]; omega
  | ⟨1, _⟩ => show win1_4.index t (1 : Fin 2) * 64 + 1 * (y 1).val = (i 1).val; rw [e1, h1]; omega

/-- The array the region leaves: the layer, without rectifier, of the arrays it found. -/
def result (c : Dev nD) : S100000x64.Idx → EReal :=
  Cert.Sage.layer 64 (V c main_v36) (V c main_v24) (V c main_arg5) (V c main_arg7) (fun q => (V c main_v37 : S1x64.Idx → EReal) (ix2 (0 : Fin 1) q))

/-- What point `t` writes back is row block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 4 t) (iblk1 V c 3 t) (ix2 p q)
    = result V c (((cfg1.win 5).blk t).view.emb (ix2 p q))
  refine (Cert.KernelIdeal.Pay.pay1_apply (iblk1 V c 0 t) (iblk1 V c 1 t) (iblk1 V c 2 t) (iblk1 V c 4 t) (iblk1 V c 3 t) p q).trans ?_
  obtain ⟨-, -, -, -, -, -, -, -, -, -, e0, e1⟩ := idx_facts t
  have hr : ((((cfg1.win 5).blk t).view.emb (ix2 p q)) 0).val = t.val * 10000 + p.val := by
    show win1_5.index t (0 : Fin 2) * 10000 + 1 * p.val = _; rw [e0]; omega
  have hc : ((((cfg1.win 5).blk t).view.emb (ix2 p q)) 1).val = q.val := by
    show win1_5.index t (1 : Fin 2) * 64 + 1 * q.val = _; rw [e1]; omega
  unfold result Cert.Sage.layer Cert.Sage.lin
  refine congrArg₂ (· + ·) (congrArg₂ (· + ·) (Finset.sum_congr rfl fun k _ => ?_) (Finset.sum_congr rfl fun k _ => ?_)) ?_
  · exact congrArg₂ (· * ·) (blk_agg V c t (ix2 p k) (ix2 _ k) hr rfl) (blk_wl V c t (ix2 k q) (ix2 k _) rfl hc)
  · exact congrArg₂ (· * ·) (blk_x V c t (ix2 p k) (ix2 _ k) hr rfl) (blk_wr V c t (ix2 k q) (ix2 k _) rfl hc)
  · exact blk_b V c t (ix2 (0 : Fin 1) q) (ix2 (0 : Fin 1) _) rfl hc

/-- An index of the result lies in point `t`'s row block exactly when each coordinate lies in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v38).slice (win1_5.rect t)).set ↔ _
  rw [View.set_slice_whole, Rect.mem_set_unit]
  exact Iff.rfl

/-- Every row of the result lies in the row block of the point `row / 10000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  refine ⟨t, flush1_5 t, ?_⟩
  obtain ⟨-, -, -, -, -, -, -, -, -, -, e0, e1⟩ := idx_facts t
  rw [mem_blk]
  intro a
  match a with
  | ⟨0, _⟩ => show win1_5.index t (0 : Fin 2) * 10000 ≤ (i 0).val ∧ (i 0).val < win1_5.index t (0 : Fin 2) * 10000 + 10000
              rw [e0]; show (i 0).val / 10000 * 10000 ≤ (i 0).val ∧ (i 0).val < (i 0).val / 10000 * 10000 + 10000; omega
  | ⟨1, _⟩ => show win1_5.index t (1 : Fin 2) * 64 ≤ (i 1).val ∧ (i 1).val < win1_5.index t (1 : Fin 2) * 64 + 64
              rw [e1]; omega

/-- After the region its result array is the layer of the arrays it found. -/
theorem final (c : Dev nD) : (dat1 V c).arrAt 5 cfg1.N = result V c :=
  (dat1 V c).arrAt_eq_of_cover 5 (result V c) (fun t _ => flushed_eq V c t) cover

end Cert.KernelIdeal.Layer1

end
-- ==== Proof.HostSide.lean ====
/-
  The host operations of the kernel program, read back as terms in the reference's vocabulary.

  Between its two kernel regions the kernel program runs the same host operations as the reference: the two slices of the
  edge array, the in-degree count (a scatter-add of ones, floored at one), the gather of the source rows, their scatter-add
  onto the destination rows, and the division by the counts. Unfolding the run of those operations from the launch memory
  gives, at each buffer a region reads, the very term the reference's read-back functions name, up to which copy of the
  dimension records and shape facts is cited; those copies are equal by definition.
-/
import proofs.«133836_j18262200942989_1_alg».proof.Proof.Gen.KernelIdeal.Frame
import proofs.«133836_j18262200942989_1_alg».proof.Proof.Gen.ReferenceIdeal.Read
import Idealize.ShloMosaic.Lib.StableHlo.Run

noncomputable section

namespace Cert.KernelIdeal.HostSide

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The arguments at region 0's entry: no host operation writes one -/

theorem entry0_arg0 (c : Dev nD) : V1 m ρ c main_arg0 = m ((c : Thread nD τ).loc main_arg0) := by
  show StableHlo.after hostOps0 (W0 m ρ c) (Proc.devRef .tc main_arg0) = _
  after_results

theorem entry0_arg2 (c : Dev nD) : V1 m ρ c main_arg2 = m ((c : Thread nD τ).loc main_arg2) := by
  show StableHlo.after hostOps0 (W0 m ρ c) (Proc.devRef .tc main_arg2) = _
  after_results

theorem entry0_arg4 (c : Dev nD) : V1 m ρ c main_arg4 = m ((c : Thread nD τ).loc main_arg4) := by
  show StableHlo.after hostOps0 (W0 m ρ c) (Proc.devRef .tc main_arg4) = _
  after_results

/-- The first bias enters region 0 reshaped to one row. -/
theorem entry0_bias (c : Dev nD) :
    V1 m ρ c main_v23 = shapeCast S1x64 (m ((c : Thread nD τ).loc main_arg3)) shapeCasts_S64_S1x64 := by
  show StableHlo.after hostOps0 (W0 m ρ c) (Proc.devRef .tc main_v23) = _
  after_results
  rfl

/-- The aggregated rows entering region 0 are the reference's. -/
theorem entry0_agg (c : Dev nD) :
    V1 m ρ c main_v22 = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

/-! ## The second layer's aggregation, as a function of the hidden rows -/

/-- The second layer's mean aggregation of an array `h` of hidden rows along the edges, in the reference's terms: gather the
    source rows, scatter-add them onto the destination rows, divide by the in-degree counts. -/
def mid (h : (⟨Cert.ReferenceIdeal.S100000x64, .f32⟩ : BufTy).Contents (Elt Ideal))
    (x1 : (⟨Cert.ReferenceIdeal.S2x1600000, .i32⟩ : BufTy).Contents (Elt Ideal)) :
    (⟨Cert.ReferenceIdeal.S100000x64, .f32⟩ : BufTy).Contents (Elt Ideal) :=
  Host.divf (F := Ideal) (φ := .f32)
    (Host.scatterAdd (F := Ideal) (φ := .f32) Cert.ReferenceIdeal.scatter_S100000x64_S1600000x1_S1600000x64_1_0_0_1
      (Cert.ReferenceIdeal.Read.val_main_v37 (F := Ideal)) (Cert.ReferenceIdeal.Read.val_main_v38 (F := Ideal) x1)
      (Host.gather Cert.ReferenceIdeal.gather_S100000x64_S1600000x1_S1600000x64_1_0_n_n_0_1_164 h
        (Cert.ReferenceIdeal.Read.val_main_v35 (F := Ideal) x1)))
    (Cert.ReferenceIdeal.Read.val_main_v40 (F := Ideal) x1)

/-- The reference's second aggregation is `mid` of its own hidden rows. -/
theorem ref_mid (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x64, .f32⟩ : BufTy).Contents (Elt Ideal))
    (x3 : (⟨Cert.ReferenceIdeal.S64, .f32⟩ : BufTy).Contents (Elt Ideal))
    (x4 : (⟨Cert.ReferenceIdeal.S128x64, .f32⟩ : BufTy).Contents (Elt Ideal)) :
    Cert.ReferenceIdeal.Read.val_main_v41 (F := Ideal) x0 x1 x2 x3 x4
      = mid (Cert.ReferenceIdeal.Read.val_main_v29 (F := Ideal) x0 x1 x2 x3 x4) x1 := by
  unfold Cert.ReferenceIdeal.Read.val_main_v41 Cert.ReferenceIdeal.Read.val_main_v39 Cert.ReferenceIdeal.Read.val_main_v36 mid
  rfl

/-! ## Region 1's entry -/

/-- The hidden rows region 0 wrote are not touched by the host operations before region 1. -/
theorem entry1_h (c : Dev nD) : V3 m ρ c main_v24 = W2 m ρ c (Proc.devRef .tc main_v24) := by
  show StableHlo.after hostOps1 (W2 m ρ c) (Proc.devRef .tc main_v24) = _
  after_results

/-- A buffer that is no array of region 0 holds at region 0's exit what the first stretch of host operations left there;
    for the second layer's weights and bias that is the launch contents. -/
theorem exit0_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

theorem exit0_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results

theorem exit0_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

theorem entry1_arg5 (c : Dev nD) : V3 m ρ c main_arg5 = m ((c : Thread nD τ).loc main_arg5) := by
  show StableHlo.after hostOps1 (W2 m ρ c) (Proc.devRef .tc main_arg5) = _
  after_results
  exact exit0_arg5 m ρ c

theorem entry1_arg7 (c : Dev nD) : V3 m ρ c main_arg7 = m ((c : Thread nD τ).loc main_arg7) := by
  show StableHlo.after hostOps1 (W2 m ρ c) (Proc.devRef .tc main_arg7) = _
  after_results
  exact exit0_arg7 m ρ c

/-- The second bias enters region 1 reshaped to one row. -/
theorem entry1_bias (c : Dev nD) :
    V3 m ρ c main_v37 = shapeCast S1x64 (m ((c : Thread nD τ).loc main_arg6)) shapeCasts_S64_S1x64 := by
  show StableHlo.after hostOps1 (W2 m ρ c) (Proc.devRef .tc main_v37) = _
  after_results
  rw [exit0_arg6 m ρ c]
  rfl

/-- The edge array's two rows and the in-degree counts, computed before region 0, are the reference's. -/
theorem exit0_v1 (c : Dev nD) :
    W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp
  rfl

theorem exit0_v3 (c : Dev nD) :
    W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp
  rfl

theorem exit0_v10 (c : Dev nD) :
    W2 m ρ c (Proc.devRef .tc main_v10) = Cert.ReferenceIdeal.Read.val_main_v10 (F := Ideal) (m ((c : Thread nD τ).loc main_arg1)) := by
  rw [W2_of_ne m ρ c main_v10 (by decide)]
  show StableHlo.after hostOps0 (W0 m ρ c) (Proc.devRef .tc main_v10) = _
  after_results_simp
  rfl

/-- The aggregated hidden rows entering region 1 are `mid` of the hidden rows region 0 wrote. -/
theorem entry1_agg (c : Dev nD) :
    V3 m ρ c main_v36 = mid (W2 m ρ c (Proc.devRef .tc main_v24)) (m ((c : Thread nD τ).loc main_arg1)) := by
  show StableHlo.after hostOps1 (W2 m ρ c) (Proc.devRef .tc main_v36) = _
  after_results_simp
  rw [exit0_v1 m ρ c, exit0_v3 m ρ c, exit0_v10 m ρ c]
  rfl

end Cert.KernelIdeal.HostSide

end
-- ==== Proof.RefLayers.lean ====
/-
  The reference's two layers read at an index.

  Each layer of the reference is: the aggregated rows against the left weights (a contraction over the input features),
  plus the bias row broadcast over the nodes, plus the node's own rows against the right weights (a second contraction);
  the first layer then takes each entry's maximum with zero. Reading the operations' values at an index `(r, c)` one after
  another gives the two sums over the input features and the bias entry `b c`, added as `(sum + bias) + sum`; on the extended
  reals that is the specification's `lin` (the bias moved to the end), and the rectifier's constant is the extended real `0`.
-/
import proofs.«133836_j18262200942989_1_alg».proof.Proof.Gen.ReferenceIdeal.Read
import proofs.«133836_j18262200942989_1_alg».proof.Proof.Spec

noncomputable section

namespace Cert.ReferenceIdeal.RefValue

open Cert.ReferenceIdeal Cert.ReferenceIdeal.Read Idealize.ShloMosaic Idealize.ShloMosaic.ValueIdx
open scoped BigOperators

/-! ## The index maps of the operations, at an index given by its coordinates -/

/-- The first layer's contractions read the left operand at row `r`, input feature `k`. -/
theorem lidx23_ix2 (r : Fin 100000) (c : Fin 64) (k : Fin 128) : lidx_main_v23 (ix2 r c) k = ix2 r k :=
  funext fun a => match a with | ⟨0, _⟩ => rfl | ⟨1, _⟩ => rfl

/-- … and the right operand at input feature `k`, output feature `c`. -/
theorem ridx23_ix2 (r : Fin 100000) (c : Fin 64) (k : Fin 128) : ridx_main_v23 (ix2 r c) k = ix2 k c :=
  funext fun a => match a with | ⟨0, _⟩ => rfl | ⟨1, _⟩ => rfl

theorem lidx27_ix2 (r : Fin 100000) (c : Fin 64) (k : Fin 128) : lidx_main_v27 (ix2 r c) k = ix2 r k :=
  funext fun a => match a with | ⟨0, _⟩ => rfl | ⟨1, _⟩ => rfl

theorem ridx27_ix2 (r : Fin 100000) (c : Fin 64) (k : Fin 128) : ridx_main_v27 (ix2 r c) k = ix2 k c :=
  funext fun a => match a with | ⟨0, _⟩ => rfl | ⟨1, _⟩ => rfl

/-- The second layer's contractions, over its 64 input features. -/
theorem lidx42_ix2 (r : Fin 100000) (c : Fin 64) (k : Fin 64) : lidx_main_v42 (ix2 r c) k = ix2 r k :=
  funext fun a => match a with | ⟨0, _⟩ => rfl | ⟨1, _⟩ => rfl

theorem ridx42_ix2 (r : Fin 100000) (c : Fin 64) (k : Fin 64) : ridx_main_v42 (ix2 r c) k = ix2 k c :=
  funext fun a => match a with | ⟨0, _⟩ => rfl | ⟨1, _⟩ => rfl

theorem lidx46_ix2 (r : Fin 100000) (c : Fin 64) (k : Fin 64) : lidx_main_v46 (ix2 r c) k = ix2 r k :=
  funext fun a => match a with | ⟨0, _⟩ => rfl | ⟨1, _⟩ => rfl

theorem ridx46_ix2 (r : Fin 100000) (c : Fin 64) (k : Fin 64) : ridx_main_v46 (ix2 r c) k = ix2 k c :=
  funext fun a => match a with | ⟨0, _⟩ => rfl | ⟨1, _⟩ => rfl

/-- The bias row broadcast over the nodes reads the bias at the output feature `c` (first layer). -/
theorem bidx25_ix2 (r : Fin 100000) (c : Fin 64) : idx_main_v24 (idx_main_v25 (ix2 r c)) = ix1 c :=
  funext fun a => match a with | ⟨0, _⟩ => rfl

/-- The same for the second layer's bias. -/
theorem bidx44_ix2 (r : Fin 100000) (c : Fin 64) : idx_main_v43 (idx_main_v44 (ix2 r c)) = ix1 c :=
  funext fun a => match a with | ⟨0, _⟩ => rfl

/-! ## The first layer -/

/-- The first layer's output at an index: the rectified `lin` of the aggregated rows and the node's own rows. -/
theorem hidden_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (i : S100000x64.Idx) :
    val_main_v29 (F := Ideal) x0 x1 x2 x3 x4 i
      = max (Cert.Sage.lin 128 (val_main_v22 (F := Ideal) x0 x1) x0 x2 x4 (fun c => x3 (ix1 c)) (i 0) (i 1)) 0 := by
  obtain ⟨r, c, rfl⟩ : ∃ (r : Fin 100000) (c : Fin 64), i = ix2 r c := ⟨i 0, i 1, eq_ix2 i⟩
  show _ = max (Cert.Sage.lin 128 (val_main_v22 (F := Ideal) x0 x1) x0 x2 x4 (fun c => x3 (ix1 c)) r c) 0
  rw [val_main_v29_apply, val_main_v28_apply, val_main_v26_apply, val_main_v23_apply, val_main_v27_apply,
    val_main_v25_apply, val_main_v24_apply, val_main_call0_v0_apply, val_main_call0_cst_apply]
  generalize val_main_v22 (F := Ideal) x0 x1 = a
  rw [bidx25_ix2]
  simp only [lidx23_ix2, ridx23_ix2, lidx27_ix2, ridx27_ix2]
  rw [Ideal.ofBits_def, Ideal.ofBits_zero_f32, Ideal.maximumf_def, Ideal.addf_def, Ideal.addf_def]
  exact congrArg (fun t => max t 0) (Cert.Sage.lin_bias_middle 128 a x0 x2 x4 (fun c => x3 (ix1 c)) r c)

/-! ## The second layer -/

/-- The second layer's output at an index: `lin` of the aggregated hidden rows and the node's own hidden rows, no rectifier. -/
theorem out_apply (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (i : S100000x64.Idx) :
    val_main_v47 (F := Ideal) x0 x1 x2 x3 x4 x5 x6 x7 i
      = Cert.Sage.lin 64 (val_main_v41 (F := Ideal) x0 x1 x2 x3 x4) (val_main_v29 (F := Ideal) x0 x1 x2 x3 x4) x5 x7 (fun c => x6 (ix1 c)) (i 0) (i 1) := by
  obtain ⟨r, c, rfl⟩ : ∃ (r : Fin 100000) (c : Fin 64), i = ix2 r c := ⟨i 0, i 1, eq_ix2 i⟩
  show _ = Cert.Sage.lin 64 (val_main_v41 (F := Ideal) x0 x1 x2 x3 x4) (val_main_v29 (F := Ideal) x0 x1 x2 x3 x4) x5 x7 (fun c => x6 (ix1 c)) r c
  rw [val_main_v47_apply, val_main_v45_apply, val_main_v42_apply, val_main_v46_apply, val_main_v44_apply, val_main_v43_apply]
  generalize val_main_v41 (F := Ideal) x0 x1 x2 x3 x4 = a
  generalize val_main_v29 (F := Ideal) x0 x1 x2 x3 x4 = h
  rw [bidx44_ix2]
  simp only [lidx42_ix2, ridx42_ix2, lidx46_ix2, ridx46_ix2]
  rw [Ideal.addf_def, Ideal.addf_def]
  exact Cert.Sage.lin_bias_middle 64 a h x5 x7 (fun c => x6 (ix1 c)) r c

end Cert.ReferenceIdeal.RefValue

end
-- ==== Proof.Whole.lean ====
/-
  The idealized kernel program's result as one function of its eight arguments, and the same function read off the
  reference.

  Write `A₁` for the mean of the in-neighbours' feature rows (gather the source rows along the edges, add them onto the
  destination rows, divide by the clamped in-degrees). Both programs compute the hidden rows
  `H = max (A₁ · W_l1 + x · W_r1 + b₁, 0)`, then the mean `A₂` of the in-neighbours' hidden rows by the same host operations
  applied to `H`, then `A₂ · W_l2 + H · W_r2 + b₂`. In the kernel program the two dense layers are kernel regions over
  ten row blocks each and the aggregations are host operations before and between them; in the reference everything is
  a host operation. The aggregations are the same host operations on both sides, so they are never opened: only the
  dense layers are compared, index by index (the modules this one imports).
-/
import proofs.«133836_j18262200942989_1_alg».proof.Proof.Run
import proofs.«133836_j18262200942989_1_alg».proof.Proof.Layer0
import proofs.«133836_j18262200942989_1_alg».proof.Proof.Layer1
import proofs.«133836_j18262200942989_1_alg».proof.Proof.HostSide
import proofs.«133836_j18262200942989_1_alg».proof.Proof.RefLayers
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx

/-- The hidden rows: the first layer, rectified, of the mean-aggregated features and the features. -/
def hidden (x0 : (⟨S100000x128, .f32⟩ : BufTy).Contents (Elt Ideal)) (x1 : (⟨S2x1600000, .i32⟩ : BufTy).Contents (Elt Ideal)) (x2 : (⟨S128x64, .f32⟩ : BufTy).Contents (Elt Ideal))
    (x3 : (⟨S64, .f32⟩ : BufTy).Contents (Elt Ideal)) (x4 : (⟨S128x64, .f32⟩ : BufTy).Contents (Elt Ideal)) : S100000x64.Idx → EReal :=
  Cert.Sage.reluLayer 128 (Cert.ReferenceIdeal.Read.val_main_v22 (F := Ideal) x0 x1) x0 x2 x4 (fun q => x3 (ix1 q))

/-- The result: the second layer of the mean-aggregated hidden rows and the hidden rows. -/
def output (x0 : (⟨S100000x128, .f32⟩ : BufTy).Contents (Elt Ideal)) (x1 : (⟨S2x1600000, .i32⟩ : BufTy).Contents (Elt Ideal)) (x2 : (⟨S128x64, .f32⟩ : BufTy).Contents (Elt Ideal))
    (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal))
    (x7 : (⟨S64x64, .f32⟩ : BufTy).Contents (Elt Ideal)) : S100000x64.Idx → EReal :=
  Cert.Sage.layer 64 (HostSide.mid (hidden x0 x1 x2 x3 x4) x1) (hidden x0 x1 x2 x3 x4) x5 x7 (fun q => x6 (ix1 q))

/-! ## The reference computes `output` -/

theorem ref_hidden (x0 : (⟨S100000x128, .f32⟩ : BufTy).Contents (Elt Ideal)) (x1 : (⟨S2x1600000, .i32⟩ : BufTy).Contents (Elt Ideal)) (x2 : (⟨S128x64, .f32⟩ : BufTy).Contents (Elt Ideal))
    (x3 : (⟨S64, .f32⟩ : BufTy).Contents (Elt Ideal)) (x4 : (⟨S128x64, .f32⟩ : BufTy).Contents (Elt Ideal)) :
    Cert.ReferenceIdeal.Read.val_main_v29 (F := Ideal) x0 x1 x2 x3 x4 = hidden x0 x1 x2 x3 x4 :=
  funext fun i => Cert.ReferenceIdeal.RefValue.hidden_apply x0 x1 x2 x3 x4 i

theorem ref_output (x0 : (⟨S100000x128, .f32⟩ : BufTy).Contents (Elt Ideal)) (x1 : (⟨S2x1600000, .i32⟩ : BufTy).Contents (Elt Ideal)) (x2 : (⟨S128x64, .f32⟩ : BufTy).Contents (Elt Ideal))
    (x3 : (⟨S64, .f32⟩ : BufTy).Contents (Elt Ideal)) (x4 : (⟨S128x64, .f32⟩ : BufTy).Contents (Elt Ideal)) (x5 : (⟨S64x64, .f32⟩ : BufTy).Contents (Elt Ideal)) (x6 : (⟨S64, .f32⟩ : BufTy).Contents (Elt Ideal))
    (x7 : (⟨S64x64, .f32⟩ : BufTy).Contents (Elt Ideal)) :
    Cert.ReferenceIdeal.Read.val_main_v47 (F := Ideal) x0 x1 x2 x3 x4 x5 x6 x7 = output x0 x1 x2 x3 x4 x5 x6 x7 := by
  funext i
  rw [Cert.ReferenceIdeal.RefValue.out_apply, HostSide.ref_mid, ref_hidden]
  rfl

/-! ## The kernel program computes `output` -/

variable (m : (ℓ : Loc nD τ sig) → Buf (Elt Ideal) ℓ) (ρ : Dev nD → PrngReg)

/-- A bias vector reshaped to one row, read at column `q`, is the vector at `q`. -/
theorem bias_row (b : (⟨S64, .f32⟩ : BufTy).Contents (Elt Ideal)) (q : Fin 64) :
    (shapeCast S1x64 b shapeCasts_S64_S1x64 : S1x64.Idx → EReal) (ix2 (0 : Fin 1) q) = b (ix1 q) :=
  shapeCast_apply b shapeCasts_S64_S1x64 (ix2 (0 : Fin 1) q) (ix1 q) (by
    rw [Shape.rowMajor_val_one, Shape.rowMajor_val_two]; show q.val = 0 * 64 + q.val; omega)

/-- Between the two regions the hidden buffer holds `hidden` of the arguments. -/
theorem hidden_eq (c : Dev nD) :
    W2 m ρ c (Proc.devRef .tc main_v24) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ?_
  rw [Layer0.final (V1 m ρ) c]
  unfold Layer0.result hidden
  rw [HostSide.entry0_agg m ρ c, HostSide.entry0_arg0 m ρ c, HostSide.entry0_arg2 m ρ c, HostSide.entry0_arg4 m ρ c,
    HostSide.entry0_bias m ρ c]
  exact congrArg (Cert.Sage.reluLayer 128 _ _ _ _) (funext fun q => bias_row _ q)

/-- After the second region the result buffer holds `output` of the arguments. -/
theorem output_eq (c : Dev nD) :
    W4 m ρ c (Proc.devRef .tc main_v38) = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ?_
  rw [Layer1.final (V3 m ρ) c]
  unfold Layer1.result output
  rw [HostSide.entry1_agg m ρ c, HostSide.entry1_h m ρ c, HostSide.entry1_arg5 m ρ c, HostSide.entry1_arg7 m ρ c,
    HostSide.entry1_bias m ρ c, hidden_eq m ρ c]
  exact congrArg (Cert.Sage.layer 64 _ _ _ _) (funext fun q => bias_row _ q)

/-- The run: every execution ends with the result at `output` of the arguments, the arguments as launched. -/
theorem run : θ_run defs (onTc (τ := τ) (main (F := Ideal))) ⟨m, fun _ => 0, ρ⟩ (fun r => ∀ c : Dev nD,
      r.2.mem ((c.tc : Thread nD τ).loc main_v38) = output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (output_eq m ρ c), (h c).2⟩) (Cert.KernelIdeal.RunValue.run_out m ρ)

end Cert.KernelIdeal.Whole

end
-- ==== Proof.lean ====
/-
  A two-layer GraphSAGE network with mean aggregation, as a kernel program against its array-level reference, compared
  over the extended reals.

  Both programs compute, for node features `x` and an edge list, the hidden rows
  `H = max (mean_in(x) · W_l1 + x · W_r1 + b₁, 0)` and the result `mean_in(H) · W_l2 + H · W_r2 + b₂`, where `mean_in` gathers
  the source rows along the edges, adds them onto the destination rows and divides by the in-degree clamped at one.
  The kernel program runs each dense layer as a kernel region over ten blocks of ten thousand rows, its two matrix
  products accumulated from zero and added before the bias; the reference runs each as two whole contractions with the
  bias added between them. The aggregations are the same host operations in both programs. So the claim reduces to: a
  row block of a product is the product of the row block, the ten blocks tile the rows, and `(s + s') + b = (s + b) + s'`
  on the extended reals — which holds at the infinities too, so the precondition that the inputs be finite is never used.
  Narrowing the operands of the kernel's products to a shorter float format is the identity over the extended reals, and
  no operation was rewritten in idealizing the kernel, so that conjunct is trivial.
-/
import proofs.«133836_j18262200942989_1_alg».proof.Defs
import proofs.«133836_j18262200942989_1_alg».proof.Proof.Gen.Kernel
import proofs.«133836_j18262200942989_1_alg».proof.Proof.Gen.Kernel.Frame
import proofs.«133836_j18262200942989_1_alg».proof.Proof.Gen.KernelIdeal
import proofs.«133836_j18262200942989_1_alg».proof.Proof.Gen.KernelIdeal.Frame
import proofs.«133836_j18262200942989_1_alg».proof.Proof.Gen.ReferenceIdeal
import proofs.«133836_j18262200942989_1_alg».proof.Proof.Gen.ReferenceIdeal.Run
import proofs.«133836_j18262200942989_1_alg».proof.Proof.Gen.ReferenceIdeal.Read
import proofs.«133836_j18262200942989_1_alg».proof.Proof.Gen.Pre_finite_inputs
import proofs.«133836_j18262200942989_1_alg».proof.Proof.Whole

noncomputable section

namespace Cert.Proof

open Idealize.ShloMosaic Idealize.SL.Sem

/-- The word-level kernel program terminates without fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories agreeing on the arguments both idealized programs end with the same result array: the function
    `output` of the arguments. -/
theorem algebraic : Cert.algebraic_KernelIdeal_ReferenceIdeal := by
  intro m ρ m' ρ' _ hagree
  refine ⟨fun c => Cert.KernelIdeal.Whole.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun r h c => ⟨?_, (h c).2⟩) (Cert.ReferenceIdeal.Value.run (F := Ideal) m' ρ')
  obtain ⟨a0, a1, a2, a3, a4, a5, a6, a7⟩ := hagree c
  rw [(h c).1, Cert.ReferenceIdeal.Read.val_main_v47_eq, Cert.KernelIdeal.Whole.ref_output, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
